-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x9 : Shape := ⟨2, ![8388608, 9]⟩
abbrev S_ : Shape := ⟨0, ![]⟩

class Facts : Prop where
  bcast_S_S8388608x9 : S_.BroadcastsInDim S8388608x9 (![] : Fin 0 → Fin S8388608x9.rank)
  reducesTo_S8388608x9_S_d0_1 : S8388608x9.ReducesTo [0, 1] S_
  h_S_ : 0 < S_.numel

variable [Facts]

def fn {F : FTy → Type} [FloatOps F] (main_arg0 : FVec F S8388608x9 .f32) : IVec S_ 1 :=
  let main_v0 : FVec F S8388608x9 .f32 := Host.absf main_arg0
  let main_cst : FVec F S_ .f32 := constant S_ .f32 0x7F800000#32
  let main_v1 : FVec F S8388608x9 .f32 := broadcastInDim S8388608x9 ![] bcast_S_S8388608x9 main_cst
  let main_v2 : IVec S8388608x9 1 := cmpf .olt main_v0 main_v1
  let main_c : IVec S_ 1 := constantI S_ 1 1#1
  let main_v3 : IVec S_ 1 := (fun x v => Host.reduce IntOp.andi x v reducesTo_S8388608x9_S_d0_1 h_S_) main_v2 main_c
  main_v3
-- ==== Kernel.lean ====
abbrev S8388608x9 : Shape := ⟨2, ![8388608, 9]⟩
abbrev S8388608x1 : Shape := ⟨2, ![8388608, 1]⟩
abbrev S8192x9 : Shape := ⟨2, ![8192, 9]⟩
abbrev S8192x1 : Shape := ⟨2, ![8192, 1]⟩
abbrev S8192 : Shape := ⟨1, ![8192]⟩

abbrev nBuf : Space → Nat
  | .hbm => 2
  | .vmem => 4
  | .smem => 0
  | _ => 0

abbrev bufTy : (tb : Table) → Fin (tcTables nBuf tb) → BufTy
  | .hbm, ⟨0, _⟩ => ⟨S8388608x9, .f32⟩
  | .hbm, ⟨1, _⟩ => ⟨S8388608x1, .f32⟩
  | .local _ .vmem, ⟨0, _⟩ => ⟨S8192x9, .f32⟩
  | .local _ .vmem, ⟨1, _⟩ => ⟨S8192x9, .f32⟩
  | .local _ .vmem, ⟨2, _⟩ => ⟨S8192x1, .f32⟩
  | .local _ .vmem, ⟨3, _⟩ => ⟨S8192x1, .f32⟩
  | _, _ => ⟨S8388608x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x9_S8192x9_0_0 : ∀ a, (![0, 0] : Fin 2 → Nat) a + S8192x9.size a ≤ S8192x9.size a
  h_S8192x9 : 0 < S8192x9.numel
  slices_S8192x9_o0_0_S8192x1 : S8192x9.Slices ![0, 0] S8192x1
  shapeCasts_S8192x1_S8192 : S8192x1.ShapeCasts S8192
  slices_S8192x9_o0_1_S8192x1 : S8192x9.Slices ![0, 1] S8192x1
  slices_S8192x9_o0_2_S8192x1 : S8192x9.Slices ![0, 2] S8192x1
  slices_S8192x9_o0_3_S8192x1 : S8192x9.Slices ![0, 3] S8192x1
  slices_S8192x9_o0_4_S8192x1 : S8192x9.Slices ![0, 4] S8192x1
  slices_S8192x9_o0_5_S8192x1 : S8192x9.Slices ![0, 5] S8192x1
  slices_S8192x9_o0_6_S8192x1 : S8192x9.Slices ![0, 6] S8192x1
  slices_S8192x9_o0_7_S8192x1 : S8192x9.Slices ![0, 7] S8192x1
  slices_S8192x9_o0_8_S8192x1 : S8192x9.Slices ![0, 8] S8192x1
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x9.size a ≤ S8388608x9.size a
  hwx0_0 : ∀ i : grid0.Coords, EltTy.bits .f32 = 32 ∨ (Rect.block (s := S8388608x9) S8192x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8388608x1.size a
  hwx0_1 : ∀ i : grid0.Coords, EltTy.bits .f32 = 32 ∨ (Rect.block (s := S8388608x1) S8192x1.size (cc0_transform_1 i) (hinb0_1 i)).WholeWords (EltTy.packing .f32)

variable [Facts₀]

abbrev win0_0 : Pipeline.Window sig grid0 :=
  Pipeline.Window.ofSpec (Memref.whole main_arg0) S8192x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x9 : Shape := ⟨2, ![8388608, 9]⟩
abbrev S8388608x1 : Shape := ⟨2, ![8388608, 1]⟩
abbrev S8388608 : Shape := ⟨1, ![8388608]⟩

abbrev nBuf : Space → Nat
  | .hbm => 34
  | .vmem => 0
  | .smem => 0
  | _ => 0

abbrev bufTy : (tb : Table) → Fin (tcTables nBuf tb) → BufTy
  | .hbm, ⟨0, _⟩ => ⟨S8388608x9, .f32⟩
  | .hbm, ⟨1, _⟩ => ⟨S8388608x1, .f32⟩
  | .hbm, ⟨2, _⟩ => ⟨S8388608, .f32⟩
  | .hbm, ⟨3, _⟩ => ⟨S8388608x1, .f32⟩
  | .hbm, ⟨4, _⟩ => ⟨S8388608, .f32⟩
  | .hbm, ⟨5, _⟩ => ⟨S8388608x1, .f32⟩
  | .hbm, ⟨6, _⟩ => ⟨S8388608, .f32⟩
  | .hbm, ⟨7, _⟩ => ⟨S8388608x1, .f32⟩
  | .hbm, ⟨8, _⟩ => ⟨S8388608, .f32⟩
  | .hbm, ⟨9, _⟩ => ⟨S8388608x1, .f32⟩
  | .hbm, ⟨10, _⟩ => ⟨S8388608, .f32⟩
  | .hbm, ⟨11, _⟩ => ⟨S8388608x1, .f32⟩
  | .hbm, ⟨12, _⟩ => ⟨S8388608, .f32⟩
  | .hbm, ⟨13, _⟩ => ⟨S8388608x1, .f32⟩
  | .hbm, ⟨14, _⟩ => ⟨S8388608, .f32⟩
  | .hbm, ⟨15, _⟩ => ⟨S8388608x1, .f32⟩
  | .hbm, ⟨16, _⟩ => ⟨S8388608, .f32⟩
  | .hbm, ⟨17, _⟩ => ⟨S8388608x1, .f32⟩
  | .hbm, ⟨18, _⟩ => ⟨S8388608, .f32⟩
  | .hbm, ⟨19, _⟩ => ⟨S8388608, .f32⟩
  | .hbm, ⟨20, _⟩ => ⟨S8388608, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S8388608, .f32⟩
  | .hbm, ⟨33, _⟩ => ⟨S8388608x1, .f32⟩
  | _, _ => ⟨S8388608x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩

abbrev nD : Nat := 1
abbrev τ : Topo := Topo.v7x

variable {F : FTy → Type} [FloatOps F]

class Facts₀ : Prop where
  slices_S8388608x9_S8388608x1_0_0 : S8388608x9.Slices ![0, 0] S8388608x1
  shapeCasts_S8388608x1_S8388608 : S8388608x1.ShapeCasts S8388608
  slices_S8388608x9_S8388608x1_0_1 : S8388608x9.Slices ![0, 1] S8388608x1
  slices_S8388608x9_S8388608x1_0_2 : S8388608x9.Slices ![0, 2] S8388608x1
  slices_S8388608x9_S8388608x1_0_3 : S8388608x9.Slices ![0, 3] S8388608x1
  slices_S8388608x9_S8388608x1_0_4 : S8388608x9.Slices ![0, 4] S8388608x1
  slices_S8388608x9_S8388608x1_0_5 : S8388608x9.Slices ![0, 5] S8388608x1
  slices_S8388608x9_S8388608x1_0_6 : S8388608x9.Slices ![0, 6] S8388608x1
  slices_S8388608x9_S8388608x1_0_7 : S8388608x9.Slices ![0, 7] S8388608x1
  slices_S8388608x9_S8388608x1_0_8 : S8388608x9.Slices ![0, 8] S8388608x1
  bcast_S8388608_S8388608x1_0 : S8388608.BroadcastsInDim S8388608x1 (![0] : Fin 1 → Fin S8388608x1.rank)

variable [Facts₀]

class Facts : Prop extends Facts₀ where

variable [Facts]
-- ==== Proof.Det3.lean ====
/-
  The specification both programs are measured against: the determinant of a 3×3 matrix, taken row by row.

  An array `x` of shape [8388608, 9] holds one 3×3 matrix per row, flattened row-major:
  row `r` is the matrix

      [ a b c ]     a = x(r,0)  b = x(r,1)  c = x(r,2)
      [ d e f ]     d = x(r,3)  e = x(r,4)  f = x(r,5)
      [ g h i ]     g = x(r,6)  h = x(r,7)  i = x(r,8)

  and its determinant is expanded along the first row,

      det = (a·(e·i − f·h) − b·(d·i − f·g)) + c·(d·h − e·g),

  with exactly this grouping. The entries are extended reals, so the grouping matters: on the extended reals
  distributivity and cancellation fail at the infinities, and no rearrangement is made anywhere in this
  certificate. The result array has shape [8388608, 1]: entry (r, 0) is the determinant of row `r`.
-/
import Idealize.ShloMosaic.Lib.ValueIdx

noncomputable section

namespace Cert.Det3

open Idealize.ShloMosaic Idealize.ShloMosaic.ValueIdx

/-- The cofactor expansion of `[a b c; d e f; g h i]` along its first row, on the extended reals,
    grouped as `(a·(e·i − f·h) − b·(d·i − f·g)) + c·(d·h − e·g)`. -/
def det3 (a b c d e f g h i : EReal) : EReal :=
  a * (e * i - f * h) - b * (d * i - f * g) + c * (d * h - e * g)

/-- The expansion written with the float operations read at the ideal instance, where each of them is the
    extended reals' own operation: the form in which both programs arrive at it. -/
theorem det3_ops (a b c d e f g h i : EReal) :
    FloatOps.addf (F := Ideal) (φ := .f32)
      (FloatOps.subf (F := Ideal) (φ := .f32)
        (FloatOps.mulf (F := Ideal) (φ := .f32) a
          (FloatOps.subf (F := Ideal) (φ := .f32) (FloatOps.mulf (F := Ideal) (φ := .f32) e i) (FloatOps.mulf (F := Ideal) (φ := .f32) f h)))
        (FloatOps.mulf (F := Ideal) (φ := .f32) b
          (FloatOps.subf (F := Ideal) (φ := .f32) (FloatOps.mulf (F := Ideal) (φ := .f32) d i) (FloatOps.mulf (F := Ideal) (φ := .f32) f g))))
      (FloatOps.mulf (F := Ideal) (φ := .f32) c
        (FloatOps.subf (F := Ideal) (φ := .f32) (FloatOps.mulf (F := Ideal) (φ := .f32) d h) (FloatOps.mulf (F := Ideal) (φ := .f32) e g)))
      = det3 a b c d e f g h i := rfl

/-- Entry `k` of row `r` of an [8388608, 9] array. -/
abbrev cell (r : Fin 8388608) (k : Fin 9) : (⟨2, ![8388608, 9]⟩ : Shape).Idx := ix2 r k

/-- The determinant of the matrix held in row `r`. -/
def rowDet (x : (⟨2, ![8388608, 9]⟩ : Shape).Idx → EReal) (r : Fin 8388608) : EReal :=
  det3 (x (cell r 0)) (x (cell r 1)) (x (cell r 2))
       (x (cell r 3)) (x (cell r 4)) (x (cell r 5))
       (x (cell r 6)) (x (cell r 7)) (x (cell r 8))

/-- The result array: entry (r, 0) is the determinant of row `r` of `x`. -/
def dets (x : (⟨2, ![8388608, 9]⟩ : Shape).Idx → EReal) : (⟨2, ![8388608, 1]⟩ : Shape).Idx → EReal :=
  fun i => rowDet x (i 0)

/-- The result array read at row `r`. -/
theorem dets_row (x : (⟨2, ![8388608, 9]⟩ : Shape).Idx → EReal) (r : Fin 8388608) (q : Fin 1) :
    dets x (ix2 r q) = rowDet x r := rfl

end Cert.Det3

end
-- ==== Proof.KernelRows.lean ====
/-
  The idealized kernel's result array is the row-by-row determinant.

  The kernel walks the [8388608, 9] argument in 1024 blocks of 8192 rows. At grid point `t` it loads the block of
  rows 8192·t … 8192·t + 8191 (all nine columns), takes the nine columns apart, combines them by the cofactor
  expansion, and writes the 8192 results back as rows 8192·t … 8192·t + 8191 of the [8388608, 1] result. So:

  * what a point leaves in its output block, at block row `p`, is the determinant of the loaded block's row `p`
    (`block_row`: the generated reading of the block as one index-by-index function of the load, with each
    column index named);
  * the loaded block's row `p` IS row 8192·t + p of the argument and the output block's row `p` IS row
    8192·t + p of the result, because the two index maps send point `t` to block `(t, 0)` (`block_index`);
    hence point `t` writes back block `t` of `Det3.dets` of the argument (`flushed_dets`);
  * every row `r` lies in the block of point `r / 8192`, and every point writes back (`covered`);

  so after the run the result array is `Det3.dets` of the argument, everywhere (`result_dets`, `run`).
-/
import proofs.«116877_j3728031613735_2_alg».proof.Proof.Gen.KernelIdeal.Value
import proofs.«116877_j3728031613735_2_alg».proof.Proof.Det3

noncomputable section

namespace Cert.KernelIdeal.Rows

open Cert.KernelIdeal Cert.KernelIdeal.Gen Cert.KernelIdeal.Value Idealize.ShloMosaic Idealize.ShloMosaic.TcCoe Idealize.SL.Sem
open Idealize.ShloMosaic.ValueIdx Cert.Det3
open Idealize.ShloMosaic.Pipeline (Dat)

variable (m : (ℓ : Loc nD τ sig) → Buf (Elt Ideal) ℓ) (ρ : Dev nD → PrngReg)

/-- The body loads and stores its blocks from their origin. -/
theorem origin : (![0, 0] : Fin 2 → Nat) = fun _ => 0 := funext fun a => by fin_cases a <;> rfl

/-- WHAT A POINT LEAVES IN ITS OUTPUT BLOCK: at block row `p`, the determinant of row `p` of the block it loaded. -/
theorem block_row (P0 : Vec Ideal S8192x9 .f32) (p : Fin 8192) (q : Fin 1) :
    out0_1 P0 (ix2 p q) = det3 (P0 (ix2 p 0)) (P0 (ix2 p 1)) (P0 (ix2 p 2)) (P0 (ix2 p 3)) (P0 (ix2 p 4)) (P0 (ix2 p 5))
      (P0 (ix2 p 6)) (P0 (ix2 p 7)) (P0 (ix2 p 8)) := by
  unfold out0_1
  rw [View.ld_unit_zero (S := S8192x9) origin]
  refine (canon1_eq P0 (ix2 p q)).trans ?_
  -- every index the block function reads is (p, k) for its column k
  have col : ∀ (k : Fin 9) (z : S8192x9.Idx), z 0 = p → z 1 = k → P0 z = P0 (ix2 p k) := fun k z h0 h1 =>
    congrArg P0 (funext fun a => match a with | ⟨0, _⟩ => h0 | ⟨1, _⟩ => h1)
  unfold E1
  -- one rewrite per column: the repeated reads of a column are the same index
  rw [col 0 (ix1_0 (ix2 p q)) rfl rfl, col 4 (ix1_1 (ix2 p q)) rfl rfl, col 8 (ix1_2 (ix2 p q)) rfl rfl,
    col 5 (ix1_3 (ix2 p q)) rfl rfl, col 7 (ix1_4 (ix2 p q)) rfl rfl, col 1 (ix1_5 (ix2 p q)) rfl rfl,
    col 3 (ix1_6 (ix2 p q)) rfl rfl, col 6 (ix1_9 (ix2 p q)) rfl rfl, col 2 (ix1_10 (ix2 p q)) rfl rfl]
  exact det3_ops _ _ _ _ _ _ _ _ _

/-- Both index maps send grid point `t` to block `(t, 0)`: the input block of 8192 rows and nine columns, and the
    output block of the same 8192 rows and its one column (decided over the 1024 points). -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- WHAT POINT `t` WRITES BACK is block `t` of the determinants of the argument's rows. -/
theorem flushed_dets (c : Dev nD) (t : Fin cfg0.N) :
    (dats m 0 c).flushed 1 t = ((cfg0.win 1).blk t).view.read (Elt Ideal) (dets (V m c main_arg0)) := by
  rw [flushed1]
  obtain ⟨i0, i1, o0, o1⟩ := block_index t
  funext j
  obtain ⟨p, q, rfl⟩ : ∃ (p : Fin 8192) (q : Fin 1), j = ix2 p q := ⟨j 0, j 1, eq_ix2 j⟩
  show out0_1 (iblk m c 0 t) (ix2 p q) = rowDet (V m c main_arg0) ((((cfg0.win 1).blk t).view.emb (ix2 p q)) 0)
  refine (block_row (iblk m c 0 t) p q).trans ?_
  -- entry (p, k) of the loaded block is entry (8192·t + p, k) of the argument
  have entry : ∀ k : Fin 9, ((cfg0.win 0).blk t).view.emb (ix2 p k) = cell ((((cfg0.win 1).blk t).view.emb (ix2 p q)) 0) k := by
    intro k
    funext a; apply Fin.ext
    match a with
    | ⟨0, _⟩ =>
      show win0_0.index t (0 : Fin 2) * 8192 + 1 * p.val = win0_1.index t (0 : Fin 2) * 8192 + 1 * p.val
      rw [i0, o0]
    | ⟨1, _⟩ =>
      show win0_0.index t (1 : Fin 2) * 9 + 1 * k.val = k.val
      rw [i1]; omega
  show det3 (V m c main_arg0 (((cfg0.win 0).blk t).view.emb (ix2 p 0))) (V m c main_arg0 (((cfg0.win 0).blk t).view.emb (ix2 p 1)))
      (V m c main_arg0 (((cfg0.win 0).blk t).view.emb (ix2 p 2))) (V m c main_arg0 (((cfg0.win 0).blk t).view.emb (ix2 p 3)))
      (V m c main_arg0 (((cfg0.win 0).blk t).view.emb (ix2 p 4))) (V m c main_arg0 (((cfg0.win 0).blk t).view.emb (ix2 p 5)))
      (V m c main_arg0 (((cfg0.win 0).blk t).view.emb (ix2 p 6))) (V m c main_arg0 (((cfg0.win 0).blk t).view.emb (ix2 p 7)))
      (V m c main_arg0 (((cfg0.win 0).blk t).view.emb (ix2 p 8))) = _
  rw [entry 0, entry 1, entry 2, entry 3, entry 4, entry 5, entry 6, entry 7, entry 8]
  rfl

/-- A row of the result lies in point `t`'s block iff it is one of the block's 8192 rows. -/
theorem mem_block (t : Fin cfg0.N) (i : S8388608x1.Idx) :
    i ∈ ((cfg0.win 1).blk t).view.set ↔ ∀ a : Fin 2, win0_1.index t a * S8192x1.size a ≤ (i a).val
      ∧ (i a).val < win0_1.index t a * S8192x1.size a + S8192x1.size a := by
  show i ∈ ((View.whole main_v0).slice (win0_1.rect t)).set ↔ _
  rw [View.set_slice_whole, Rect.mem_set_unit]
  exact Iff.rfl

/-- EVERY ROW IS WRITTEN: row `r` lies in the block of point `r / 8192`, and every point writes back. -/
theorem covered (i : S8388608x1.Idx) :
    ∃ t : Fin cfg0.N, (cfg0.win 1).flush t = true ∧ i ∈ ((cfg0.win 1).blk t).view.set := by
  have hi0 : (i 0).val < 8388608 := (i 0).isLt
  have hi1 : (i 1).val < 1 := (i 1).isLt
  have hlt : (i 0).val / 8192 < cfg0.N := by show (i 0).val / 8192 < grid0.N; rw [N_0]; omega
  obtain ⟨-, -, o0, o1⟩ := block_index ⟨(i 0).val / 8192, hlt⟩
  refine ⟨⟨(i 0).val / 8192, hlt⟩, flush0_1 _, ?_⟩
  rw [mem_block]
  intro a
  match a with
  | ⟨0, _⟩ =>
    show win0_1.index ⟨(i 0).val / 8192, hlt⟩ (0 : Fin 2) * 8192 ≤ (i 0).val
      ∧ (i 0).val < win0_1.index ⟨(i 0).val / 8192, hlt⟩ (0 : Fin 2) * 8192 + 8192
    rw [o0]; show (i 0).val / 8192 * 8192 ≤ (i 0).val ∧ (i 0).val < (i 0).val / 8192 * 8192 + 8192; omega
  | ⟨1, _⟩ =>
    show win0_1.index ⟨(i 0).val / 8192, hlt⟩ (1 : Fin 2) * 1 ≤ (i 1).val
      ∧ (i 1).val < win0_1.index ⟨(i 0).val / 8192, hlt⟩ (1 : Fin 2) * 1 + 1
    rw [o1]; omega

/-- THE RESULT ARRAY after the run: the determinants of the argument's rows. -/
theorem result_dets (c : Dev nD) : (dats m 0 c).arrAt 1 cfg0.N = dets (V m c main_arg0) :=
  (dats m 0 c).arrAt_eq_of_cover 1 (dets (V m c main_arg0)) (fun t _ => flushed_dets m c t) covered

/-- The kernel's run: every weakly fair execution ends with the result array at the determinants of the argument's
    rows, the argument unchanged. -/
theorem run : θ_run defs (onTc (τ := τ) (main (F := Ideal))) ⟨m, fun _ => 0, ρ⟩ fun r => ∀ c : Dev nD,
      r.2.mem ((c : Thread nD τ).loc main_v0) = dets (m ((c : Thread nD τ).loc main_arg0))
      ∧ r.2.mem ((c : Thread nD τ).loc main_arg0) = m ((c : Thread nD τ).loc main_arg0) :=
  (θ_run defs _ _).mono (fun r h c => ⟨(h c).1.trans (result_dets m c), (h c).2⟩) (run_blocks m ρ)

end Cert.KernelIdeal.Rows

end
-- ==== Proof.ReferenceRows.lean ====
/-
  The idealized reference's result array is the row-by-row determinant.

  The reference slices the nine columns out of the whole [8388608, 9] argument, drops each slice's unit axis,
  combines the nine vectors of length 8388608 by the cofactor expansion, and gives the result its unit axis back.
  Read at entry (r, 0): the last operation reads the combined vector at r; each arithmetic operation reads its
  operands at r; each dropped axis reads the slice at (r, 0); the slice of column k reads the argument at (r, k).
  So entry (r, 0) is the determinant of row r (`result_dets`), with the operations in the specification's own order.
-/
import proofs.«116877_j3728031613735_2_alg».proof.Proof.Gen.ReferenceIdeal.Read
import proofs.«116877_j3728031613735_2_alg».proof.Proof.Det3

noncomputable section

namespace Cert.ReferenceIdeal.Rows

open Cert.ReferenceIdeal Cert.ReferenceIdeal.Gen Cert.ReferenceIdeal.Read Idealize.ShloMosaic Idealize.ShloMosaic.TcCoe Idealize.SL.Sem
open Idealize.ShloMosaic.ValueIdx Cert.Det3

/-- A column vector read at `r`: dropping the unit axis reads the slice at (r, 0), and the slice of column `k`
    reads the argument at (r, k). Stated once for any index `z` of the argument with those coordinates. -/
theorem at_cell (x0 : (⟨S8388608x9, .f32⟩ : BufTy).Contents (Elt Ideal)) (r : Fin 8388608) (k : Fin 9)
    (z : S8388608x9.Idx) (h0 : (z 0).val = r.val) (h1 : (z 1).val = k.val) : x0 z = x0 (cell r k) :=
  congrArg x0 (funext fun a => match a with | ⟨0, _⟩ => Fin.ext h0 | ⟨1, _⟩ => Fin.ext h1)

/-- THE REFERENCE'S RESULT, as the run states it, is the determinants of the argument's rows. -/
theorem result_dets (x0 : (⟨S8388608x9, .f32⟩ : BufTy).Contents (Elt Ideal)) :
    val_main_v32 (F := Ideal) x0 = dets x0 := by
  funext i
  obtain ⟨r, q, rfl⟩ : ∃ (r : Fin 8388608) (q : Fin 1), i = ix2 r q := ⟨i 0, i 1, eq_ix2 i⟩
  rw [dets_row]
  -- down the operations, outermost first, to the nine column vectors at r
  rw [val_main_v32_apply, val_main_v31_apply, val_main_v26_apply, val_main_v21_apply, val_main_v20_apply,
    val_main_v18_apply, val_main_v19_apply, val_main_v25_apply, val_main_v24_apply, val_main_v22_apply,
    val_main_v23_apply, val_main_v30_apply, val_main_v29_apply, val_main_v27_apply, val_main_v28_apply]
  -- each column vector at r is the argument at (r, k)
  rw [val_main_v1_apply, val_main_v0_apply, val_main_v3_apply, val_main_v2_apply, val_main_v5_apply, val_main_v4_apply,
    val_main_v7_apply, val_main_v6_apply, val_main_v9_apply, val_main_v8_apply, val_main_v11_apply, val_main_v10_apply,
    val_main_v13_apply, val_main_v12_apply, val_main_v15_apply, val_main_v14_apply, val_main_v17_apply, val_main_v16_apply]
  rw [at_cell x0 r 0 (idx_main_v0 (idx_main_v1 (idx_main_v32 (ix2 r q)))) (Nat.div_one _) rfl,
    at_cell x0 r 1 (idx_main_v2 (idx_main_v3 (idx_main_v32 (ix2 r q)))) (Nat.div_one _) rfl,
    at_cell x0 r 2 (idx_main_v4 (idx_main_v5 (idx_main_v32 (ix2 r q)))) (Nat.div_one _) rfl,
    at_cell x0 r 3 (idx_main_v6 (idx_main_v7 (idx_main_v32 (ix2 r q)))) (Nat.div_one _) rfl,
    at_cell x0 r 4 (idx_main_v8 (idx_main_v9 (idx_main_v32 (ix2 r q)))) (Nat.div_one _) rfl,
    at_cell x0 r 5 (idx_main_v10 (idx_main_v11 (idx_main_v32 (ix2 r q)))) (Nat.div_one _) rfl,
    at_cell x0 r 6 (idx_main_v12 (idx_main_v13 (idx_main_v32 (ix2 r q)))) (Nat.div_one _) rfl,
    at_cell x0 r 7 (idx_main_v14 (idx_main_v15 (idx_main_v32 (ix2 r q)))) (Nat.div_one _) rfl,
    at_cell x0 r 8 (idx_main_v16 (idx_main_v17 (idx_main_v32 (ix2 r q)))) (Nat.div_one _) rfl]
  exact det3_ops _ _ _ _ _ _ _ _ _

end Cert.ReferenceIdeal.Rows

end
-- ==== Proof.lean ====
/-
  Batched 3×3 determinants: the kernel and its reference compute the same array over the extended reals.

  The argument `x` has shape [8388608, 9]; row `r` holds the matrix [a b c; d e f; g h i] flattened row-major.
  Both programs produce the [8388608, 1] array whose entry (r, 0) is the cofactor expansion along the first row,

      (a·(e·i − f·h) − b·(d·i − f·g)) + c·(d·h − e·g),

  with the same operations in the same order (Proof/Det3.lean states it). The kernel computes it 8192 rows at a
  time over a grid of 1024 blocks that tile the rows (Proof/KernelRows.lean); the reference computes it on the
  whole array from nine column slices (Proof/ReferenceRows.lean). No algebraic law relates the two sides — they
  are one expression — so the equality holds for every extended-real input and the finiteness of the input is
  never used.

  The five conjuncts: the three programs run to the end without a fault and leave the argument as it was (the
  kernel's two readings by their generated frames, the reference's by its generated run with the result dropped);
  the idealized kernel is the kernel's own text read over the extended reals, no operation having been rewritten,
  so there is nothing to preserve; and the two idealized programs end with equal results.
-/
import proofs.«116877_j3728031613735_2_alg».proof.Defs
import proofs.«116877_j3728031613735_2_alg».proof.Proof.Gen.Kernel
import proofs.«116877_j3728031613735_2_alg».proof.Proof.Gen.Kernel.Frame
import proofs.«116877_j3728031613735_2_alg».proof.Proof.Gen.KernelIdeal
import proofs.«116877_j3728031613735_2_alg».proof.Proof.Gen.KernelIdeal.Frame
import proofs.«116877_j3728031613735_2_alg».proof.Proof.Gen.ReferenceIdeal
import proofs.«116877_j3728031613735_2_alg».proof.Proof.Gen.ReferenceIdeal.Run
import proofs.«116877_j3728031613735_2_alg».proof.Proof.Gen.Pre_finite_inputs
import proofs.«116877_j3728031613735_2_alg».proof.Proof.KernelRows
import proofs.«116877_j3728031613735_2_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs to the end, nothing faulting, the argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the argument both programs end with the result array at the row-by-row
    determinants of that argument: the kernel block by block, the reference on the whole array. -/
theorem algebraic : Cert.algebraic_KernelIdeal_ReferenceIdeal := by
  intro m ρ m' ρ' _ hagree
  refine ⟨fun c => Cert.Det3.dets (m ((c.tc : Thread Cert.KernelIdeal.nD Cert.KernelIdeal.τ).loc Cert.KernelIdeal.main_arg0)),
    Cert.KernelIdeal.Rows.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v32_eq, Cert.ReferenceIdeal.Rows.result_dets, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
